-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x1024 : Shape := ⟨2, ![16384, 1024]⟩
abbrev S256x1024 : Shape := ⟨2, ![256, 1024]⟩
abbrev S1024 : Shape := ⟨1, ![1024]⟩
abbrev S1024x1024 : Shape := ⟨2, ![1024, 1024]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S1024x1024 .f32) (main_arg12 : FVec F S256x1024 .f32) (main_arg13 : FVec F S1024 .f32) (main_arg14 : FVec F S1024x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S256x1024 .f32 := Host.absf main_arg12
  let main_cst_22 : FVec F S_ .f32 := constant S_ .f32 0x7F800000#32
  let main_v60 : FVec F S256x1024 .f32 := broadcastInDim S256x1024 ![] bcast_S_S256x1024 main_cst_22
  let main_v61 : IVec S256x1024 1 := cmpf .olt main_v59 main_v60
  let main_c_23 : IVec S_ 1 := constantI S_ 1 1#1
  let main_v62 : IVec S_ 1 := (fun x v => Host.reduce IntOp.andi x v reducesTo_S256x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S1024 .f32) (main_arg8 : FVec F S1024x1024 .f32) (main_arg9 : FVec F S256x1024 .f32) (main_arg10 : FVec F S1024 .f32) (main_arg11 : FVec F S1024x1024 .f32) (main_arg12 : FVec F S256x1024 .f32) (main_arg13 : FVec F S1024 .f32) (main_arg14 : FVec F S1024x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S256x1024 .f32 := Host.absf main_arg9
  let main_cst_16 : FVec F S_ .f32 := constant S_ .f32 0x7F800000#32
  let main_v45 : FVec F S256x1024 .f32 := broadcastInDim S256x1024 ![] bcast_S_S256x1024 main_cst_16
  let main_v46 : IVec S256x1024 1 := cmpf .olt main_v44 main_v45
  let main_c_17 : IVec S_ 1 := constantI S_ 1 1#1
  let main_v47 : IVec S_ 1 := (fun x v => Host.reduce IntOp.andi x v reducesTo_S256x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x1024 .f32) (main_arg6 : FVec F S256x1024 .f32) (main_arg7 : FVec F S1024 .f32) (main_arg8 : FVec F S1024x1024 .f32) (main_arg9 : FVec F S256x1024 .f32) (main_arg10 : FVec F S1024 .f32) (main_arg11 : FVec F S1024x1024 .f32) (main_arg12 : FVec F S256x1024 .f32) (main_arg13 : FVec F S1024 .f32) (main_arg14 : FVec F S1024x1024 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S256x1024 .f32 := Host.absf main_arg6
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16384x256 .f32) (main_arg1 : FVec F S16384x1024 .f32) (main_arg2 : FVec F S16384x1024 .f32) (main_arg3 : FVec F S256x1024 .f32) (main_arg4 : FVec F S1024 .f32) (main_arg5 : FVec F S1024x1024 .f32) (main_arg6 : FVec F S256x1024 .f32) (main_arg7 : FVec F S1024 .f32) (main_arg8 : FVec F S1024x1024 .f32) (main_arg9 : FVec F S256x1024 .f32) (main_arg10 : FVec F S1024 .f32) (main_arg11 : FVec F S1024x1024 .f32) (main_arg12 : FVec F S256x1024 .f32) (main_arg13 : FVec F S1024 .f32) (main_arg14 : FVec F S1024x1024 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16384x256 : Shape := ⟨2, ![16384, 256]⟩
abbrev S16384x1024 : Shape := ⟨2, ![16384, 1024]⟩
abbrev S256x1024 : Shape := ⟨2, ![256, 1024]⟩
abbrev S1024 : Shape := ⟨1, ![1024]⟩
abbrev S1024x1024 : Shape := ⟨2, ![1024, 1024]⟩
abbrev S256x4096 : Shape := ⟨2, ![256, 4096]⟩
abbrev S1024x4096 : Shape := ⟨2, ![1024, 4096]⟩
abbrev S4096 : Shape := ⟨1, ![4096]⟩
abbrev S256x256 : Shape := ⟨2, ![256, 256]⟩
abbrev S1x4096 : Shape := ⟨2, ![1, 4096]⟩

abbrev nBuf : Space → Nat
  | .hbm => 22
  | .vmem => 13
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S16384x1024, .f32⟩
  | .hbm, ⟨3, _⟩ => ⟨S256x1024, .f32⟩
  | .hbm, ⟨4, _⟩ => ⟨S1024, .f32⟩
  | .hbm, ⟨5, _⟩ => ⟨S1024x1024, .f32⟩
  | .hbm, ⟨6, _⟩ => ⟨S256x1024, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S1024, .f32⟩
  | .hbm, ⟨11, _⟩ => ⟨S1024x1024, .f32⟩
  | .hbm, ⟨12, _⟩ => ⟨S256x1024, .f32⟩
  | .hbm, ⟨13, _⟩ => ⟨S1024, .f32⟩
  | .hbm, ⟨14, _⟩ => ⟨S1024x1024, .f32⟩
  | .hbm, ⟨15, _⟩ => ⟨S256x4096, .f32⟩
  | .hbm, ⟨16, _⟩ => ⟨S256x4096, .bf16⟩
  | .hbm, ⟨17, _⟩ => ⟨S1024x4096, .f32⟩
  | .hbm, ⟨18, _⟩ => ⟨S1024x4096, .bf16⟩
  | .hbm, ⟨19, _⟩ => ⟨S4096, .f32⟩
  | .hbm, ⟨20, _⟩ => ⟨S16384x1024, .f32⟩
  | .hbm, ⟨21, _⟩ => ⟨S16384x1024, .f32⟩
  | .local _ .vmem, ⟨0, _⟩ => ⟨S256x256, .f32⟩
  | .local _ .vmem, ⟨1, _⟩ => ⟨S256x256, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x4096, .bf16⟩
  | .local _ .vmem, ⟨7, _⟩ => ⟨S1024x4096, .bf16⟩
  | .local _ .vmem, ⟨8, _⟩ => ⟨S4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S256x1024_S256x1024_S256x1024_S256x1024_S256x4096_d1 : Shape.Concatenates [S256x1024, S256x1024, S256x1024, S256x1024] S256x4096 1
  bitsLt_bf16_f32 : FTy.bits .bf16 < FTy.bits .f32
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  inb_S256x256_S256x256_0_0 : ∀ a, (![0, 0] : Fin 2 → Nat) a + S256x256.size a ≤ S256x256.size a
  h_S256x256 : 0 < S256x256.numel
  inb_S256x1024_S256x1024_0_0 : ∀ a, (![0, 0] : Fin 2 → Nat) a + S256x1024.size a ≤ S256x1024.size a
  h_S256x1024 : 0 < S256x1024.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x256_S256x4096_S256x4096_1_0_0_1_n_n_wf : DotDims.WF S256x256 S256x4096 S256x4096 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S16384x256.size a
  hwx0_0 : ∀ i : grid0.Coords, EltTy.bits .f32 = 32 ∨ (Rect.block (s := S16384x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S256x4096.size a
  hwx0_3 : ∀ i : grid0.Coords, EltTy.bits .bf16 = 32 ∨ (Rect.block (s := S256x4096) S256x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384x1024 : Shape := ⟨2, ![16384, 1024]⟩
abbrev S256x1024 : Shape := ⟨2, ![256, 1024]⟩
abbrev S1024 : Shape := ⟨1, ![1024]⟩
abbrev S1024x1024 : Shape := ⟨2, ![1024, 1024]⟩
abbrev S256x4096 : Shape := ⟨2, ![256, 4096]⟩
abbrev S1024x4096 : Shape := ⟨2, ![1024, 4096]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S16384x1024, .f32⟩
  | .hbm, ⟨3, _⟩ => ⟨S256x1024, .f32⟩
  | .hbm, ⟨4, _⟩ => ⟨S1024, .f32⟩
  | .hbm, ⟨5, _⟩ => ⟨S1024x1024, .f32⟩
  | .hbm, ⟨6, _⟩ => ⟨S256x1024, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S1024, .f32⟩
  | .hbm, ⟨11, _⟩ => ⟨S1024x1024, .f32⟩
  | .hbm, ⟨12, _⟩ => ⟨S256x1024, .f32⟩
  | .hbm, ⟨13, _⟩ => ⟨S1024, .f32⟩
  | .hbm, ⟨14, _⟩ => ⟨S1024x1024, .f32⟩
  | .hbm, ⟨15, _⟩ => ⟨S256x4096, .f32⟩
  | .hbm, ⟨16, _⟩ => ⟨S1024x4096, .f32⟩
  | .hbm, ⟨17, _⟩ => ⟨S4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S1x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call1_cst : Ref sig .tc := ⟨.hbm, 42, rfl⟩
abbrev main_call1_v0 : Ref sig .tc := ⟨.hbm, 43, rfl⟩
abbrev main_v23 : Ref sig .tc := ⟨.hbm, 44, rfl⟩
abbrev main_v24 : Ref sig .tc := ⟨.hbm, 45, rfl⟩

abbrev nD : Nat := 1
abbrev τ : Topo := Topo.v7x

variable {F : FTy → Type} [FloatOps F]

class Facts₀ : Prop where
  concatenates_S256x1024_S256x1024_S256x1024_S256x1024_S256x4096_d1 : Shape.Concatenates [S256x1024, S256x1024, S256x1024, S256x1024] S256x4096 1
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x256_S256x4096_S16384x4096_1_0_0_1_n_n_wf : DotDims.WF S16384x256 S256x4096 S16384x4096 [1] [0] [0] [1] [] []
  dot_S16384x1024_S1024x4096_S16384x4096_1_0_0_1_n_n_wf : DotDims.WF S16384x1024 S1024x4096 S16384x4096 [1] [0] [0] [1] [] []

variable [Facts₀]

def dot_S16384x256_S256x4096_S16384x4096_1_0_0_1_n_n : DotDims S16384x256 S256x4096 S16384x4096 where
  lhsContracting := [1]
  rhsContracting := [0]
  lhsNonContracting := [0]
  rhsNonContracting := [1]
  lhsBatch := []
  rhsBatch := []
  wf := dot_S16384x256_S256x4096_S16384x4096_1_0_0_1_n_n_wf
def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.FrameBits.lean ====
/-
  The frame of the kernel program as printed: @main concatenates the four gate weights (input-side, recurrent-side and bias) and casts the two
  weight matrices, then launches ONE region over 64 points, each handling 256 batch rows. At a point the body reads its
  block of x, o, h and the whole concatenated W, R, b, and overwrites its block of the two results: the new cell value
  f*o - i*max(g, 0) and the new hidden value k*max(cell, 0), where (f, i, k, g) are the four 1024-column slices of
  logistic(x·W + h·R + b). Nothing else is touched, so every argument array ends as launched, and each result array
  ends at what the library assembles from the per-point blocks. Stated for any float instance.
-/
import proofs.«105738_j12962211300015_1_alg».proof.Proof.Gen.Kernel.Launch
import proofs.«105738_j12962211300015_1_alg».proof.Proof.Gen.Kernel.Skeleton
import proofs.«105738_j12962211300015_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the five host operations
    (three concatenations, two casts). -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not
    (an unfetched window's block index has not moved): for any proof data over the region-entry arrays whose body
    leaves the inputs' buffers as found. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run to the library's frame post: the three batch arrays are staged inputs (read back as found), the twelve
    weight and bias arrays bypass the region, and no host operation writes any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses: each buffer whole -/

abbrev rX : Rect S256x256 := Rect.unit (s := S256x256) ![0, 0] S256x256.size inb_S256x256_S256x256_0_0
abbrev rH : Rect S256x1024 := Rect.unit (s := S256x1024) ![0, 0] S256x1024.size inb_S256x1024_S256x1024_0_0
abbrev rW : Rect S256x4096 := Rect.unit (s := S256x4096) ![0, 0] S256x4096.size inb_S256x4096_S256x4096_0_0
abbrev rR : Rect S1024x4096 := Rect.unit (s := S1024x4096) ![0, 0] S1024x4096.size inb_S1024x4096_S1024x4096_0_0
abbrev rB : Rect S4096 := Rect.unit (s := S4096) ![0] S4096.size inb_S4096_S4096_0

/-! ## What the body leaves in the two result buffers -/

/-- The new cell value's buffer after the body: one store of the whole block, of the input blocks. -/
def cellOut (x0 : Vec F S256x256 .f32) (x1 : Vec F S256x1024 .f32) (x2 : Vec F S256x1024 .f32) (x3 : Vec F S256x4096 .bf16) (x4 : Vec F S1024x4096 .bf16) (x5 : Vec F S4096 .f32) : Vec F S256x1024 .f32 :=
  View.canon [⟨rH, k0_pay2 (View.ld x0 rX) (View.ld x2 rH) (View.ld x3 rW) (View.ld x4 rR) (View.ld x5 rB) (View.ld x1 rH)⟩]
/-- The new hidden value's buffer after the body. -/
def hiddenOut (x0 : Vec F S256x256 .f32) (x1 : Vec F S256x1024 .f32) (x2 : Vec F S256x1024 .f32) (x3 : Vec F S256x4096 .bf16) (x4 : Vec F S1024x4096 .bf16) (x5 : Vec F S4096 .f32) : Vec F S256x1024 .f32 :=
  View.canon [⟨rH, k0_pay3 (View.ld x0 rX) (View.ld x2 rH) (View.ld x3 rW) (View.ld x4 rR) (View.ld x5 rB) (View.ld x1 rH)⟩]

/-- One store of the whole block covers the buffer. -/
theorem cover_whole (p0 : Vec F S256x1024 .f32) (y : S256x1024.Idx) :
    ∃ pc ∈ ([⟨rH, p0⟩] : List (View.Piece (Elt F) S256x1024 .f32)), y ∈ pc.1.set :=
  View.cover_of_tiled [⟨rH, p0⟩] S256x1024.size (by rfl) y

/-! ## The body's triple -/

set_option maxHeartbeats 1000000 in
/-- On whole staging buffers, the six inputs' at contents `x0 … x5` and the two results' at anything, the body runs to
    a state holding the inputs as they were and the results at `cellOut` / `hiddenOut` of the inputs. (It loads each
    result buffer before overwriting it whole; the loaded value is never used.) -/
theorem sound_kernel (c : Dev nD) (E : Set ℕ) (i : grid0.Coords) (arg1 : Memref sig .tc .vmem S256x256 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x4096 .bf16) (harg4 : arg4.IsWhole) (arg5 : Memref sig .tc .vmem S1024x4096 .bf16) (harg5 : arg5.IsWhole) (arg6 : Memref sig .tc .vmem S4096 .f32) (harg6 : arg6.IsWhole) (arg7 : Memref sig .tc .vmem S256x1024 .f32) (harg7 : arg7.IsWhole) (arg8 : Memref sig .tc .vmem S256x1024 .f32) (harg8 : arg8.IsWhole)
    (x0 : Vec F S256x256 .f32) (x1 : Vec F S256x1024 .f32) (x2 : Vec F S256x1024 .f32) (x3 : Vec F S256x4096 .bf16) (x4 : Vec F S1024x4096 .bf16) (x5 : Vec F S4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (cellOut x0 x1 x2 x3 x4 x5) ∗ owns (c : Thread nD τ) arg8 fullShare (hiddenOut x0 x1 x2 x3 x4 x5)) -∗ K ⟨⟩))
      ⊢ wp frame (wpE (defs₀ (F := F)) Variants.none c none) E (cc0__gate_kernel i arg1 harg1 arg2 harg2 arg3 harg3 arg4 harg4 arg5 harg5 arg6 harg6 arg7 harg7 arg8 harg8) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_whole _)
  iexists _; isplitr
  swap; · iexact H7
  ipureintro
  exact View.read_writes_eq_canon _ _ _ (cover_whole _)

/-! ## The pipeline's proof data -/

/-- On core `c`: the arrays as the region finds them; after the body at point `t` each input's buffer at its block and
    each result's at its function of the input blocks; nothing of the kernel's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => cellOut (iblk m c 0 t) (iblk m c 1 t) (iblk m c 2 t) (iblk m c 3 t) (iblk m c 4 t) (iblk m c 5 t)
    | ⟨7, _⟩ => hiddenOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_cell (c : Dev nD) (t : Fin cfg0.N) : (dats m 0 c).after 6 t = cellOut (iblk m c 0 t) (iblk m c 1 t) (iblk m c 2 t) (iblk m c 3 t) (iblk m c 4 t) (iblk m c 5 t) := by dsimp only [dats]
theorem after_hidden (c : Dev nD) (t : Fin cfg0.N) : (dats m 0 c).after 7 t = hiddenOut (iblk m c 0 t) (iblk m c 1 t) (iblk m c 2 t) (iblk m c 3 t) (iblk m c 4 t) (iblk m c 5 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_cell, after_hidden]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each of the region's arrays at what the
    library assembles from the proof data and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, nothing faults, and the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Launched

end
-- ==== Proof.FrameIdeal.lean ====
/-
  The frame of the idealized kernel program: @main concatenates the four gate weights (input-side, recurrent-side and bias) and casts the two
  weight matrices, then launches ONE region over 64 points, each handling 256 batch rows. At a point the body reads its
  block of x, o, h and the whole concatenated W, R, b, and overwrites its block of the two results: the new cell value
  f*o - i*max(g, 0) and the new hidden value k*max(cell, 0), where (f, i, k, g) are the four 1024-column slices of
  logistic(x·W + h·R + b). Nothing else is touched, so every argument array ends as launched, and each result array
  ends at what the library assembles from the per-point blocks. Stated for any float instance.
-/
import proofs.«105738_j12962211300015_1_alg».proof.Proof.Gen.KernelIdeal.Launch
import proofs.«105738_j12962211300015_1_alg».proof.Proof.Gen.KernelIdeal.Skeleton
import proofs.«105738_j12962211300015_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the five host operations
    (three concatenations, two casts). -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not
    (an unfetched window's block index has not moved): for any proof data over the region-entry arrays whose body
    leaves the inputs' buffers as found. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run to the library's frame post: the three batch arrays are staged inputs (read back as found), the twelve
    weight and bias arrays bypass the region, and no host operation writes any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses: each buffer whole -/

abbrev rX : Rect S256x256 := Rect.unit (s := S256x256) ![0, 0] S256x256.size inb_S256x256_S256x256_0_0
abbrev rH : Rect S256x1024 := Rect.unit (s := S256x1024) ![0, 0] S256x1024.size inb_S256x1024_S256x1024_0_0
abbrev rW : Rect S256x4096 := Rect.unit (s := S256x4096) ![0, 0] S256x4096.size inb_S256x4096_S256x4096_0_0
abbrev rR : Rect S1024x4096 := Rect.unit (s := S1024x4096) ![0, 0] S1024x4096.size inb_S1024x4096_S1024x4096_0_0
abbrev rB : Rect S4096 := Rect.unit (s := S4096) ![0] S4096.size inb_S4096_S4096_0

/-! ## What the body leaves in the two result buffers -/

/-- The new cell value's buffer after the body: one store of the whole block, of the input blocks. -/
def cellOut (x0 : Vec F S256x256 .f32) (x1 : Vec F S256x1024 .f32) (x2 : Vec F S256x1024 .f32) (x3 : Vec F S256x4096 .bf16) (x4 : Vec F S1024x4096 .bf16) (x5 : Vec F S4096 .f32) : Vec F S256x1024 .f32 :=
  View.canon [⟨rH, k0_pay2 (View.ld x0 rX) (View.ld x2 rH) (View.ld x3 rW) (View.ld x4 rR) (View.ld x5 rB) (View.ld x1 rH)⟩]
/-- The new hidden value's buffer after the body. -/
def hiddenOut (x0 : Vec F S256x256 .f32) (x1 : Vec F S256x1024 .f32) (x2 : Vec F S256x1024 .f32) (x3 : Vec F S256x4096 .bf16) (x4 : Vec F S1024x4096 .bf16) (x5 : Vec F S4096 .f32) : Vec F S256x1024 .f32 :=
  View.canon [⟨rH, k0_pay3 (View.ld x0 rX) (View.ld x2 rH) (View.ld x3 rW) (View.ld x4 rR) (View.ld x5 rB) (View.ld x1 rH)⟩]

/-- One store of the whole block covers the buffer. -/
theorem cover_whole (p0 : Vec F S256x1024 .f32) (y : S256x1024.Idx) :
    ∃ pc ∈ ([⟨rH, p0⟩] : List (View.Piece (Elt F) S256x1024 .f32)), y ∈ pc.1.set :=
  View.cover_of_tiled [⟨rH, p0⟩] S256x1024.size (by rfl) y

/-! ## The body's triple -/

set_option maxHeartbeats 1000000 in
/-- On whole staging buffers, the six inputs' at contents `x0 … x5` and the two results' at anything, the body runs to
    a state holding the inputs as they were and the results at `cellOut` / `hiddenOut` of the inputs. (It loads each
    result buffer before overwriting it whole; the loaded value is never used.) -/
theorem sound_kernel (c : Dev nD) (E : Set ℕ) (i : grid0.Coords) (arg1 : Memref sig .tc .vmem S256x256 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x4096 .bf16) (harg4 : arg4.IsWhole) (arg5 : Memref sig .tc .vmem S1024x4096 .bf16) (harg5 : arg5.IsWhole) (arg6 : Memref sig .tc .vmem S4096 .f32) (harg6 : arg6.IsWhole) (arg7 : Memref sig .tc .vmem S256x1024 .f32) (harg7 : arg7.IsWhole) (arg8 : Memref sig .tc .vmem S256x1024 .f32) (harg8 : arg8.IsWhole)
    (x0 : Vec F S256x256 .f32) (x1 : Vec F S256x1024 .f32) (x2 : Vec F S256x1024 .f32) (x3 : Vec F S256x4096 .bf16) (x4 : Vec F S1024x4096 .bf16) (x5 : Vec F S4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (cellOut x0 x1 x2 x3 x4 x5) ∗ owns (c : Thread nD τ) arg8 fullShare (hiddenOut x0 x1 x2 x3 x4 x5)) -∗ K ⟨⟩))
      ⊢ wp frame (wpE (defs₀ (F := F)) Variants.none c none) E (cc0__gate_kernel i arg1 harg1 arg2 harg2 arg3 harg3 arg4 harg4 arg5 harg5 arg6 harg6 arg7 harg7 arg8 harg8) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_whole _)
  iexists _; isplitr
  swap; · iexact H7
  ipureintro
  exact View.read_writes_eq_canon _ _ _ (cover_whole _)

/-! ## The pipeline's proof data -/

/-- On core `c`: the arrays as the region finds them; after the body at point `t` each input's buffer at its block and
    each result's at its function of the input blocks; nothing of the kernel's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => cellOut (iblk m c 0 t) (iblk m c 1 t) (iblk m c 2 t) (iblk m c 3 t) (iblk m c 4 t) (iblk m c 5 t)
    | ⟨7, _⟩ => hiddenOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_cell (c : Dev nD) (t : Fin cfg0.N) : (dats m 0 c).after 6 t = cellOut (iblk m c 0 t) (iblk m c 1 t) (iblk m c 2 t) (iblk m c 3 t) (iblk m c 4 t) (iblk m c 5 t) := by dsimp only [dats]
theorem after_hidden (c : Dev nD) (t : Fin cfg0.N) : (dats m 0 c).after 7 t = hiddenOut (iblk m c 0 t) (iblk m c 1 t) (iblk m c 2 t) (iblk m c 3 t) (iblk m c 4 t) (iblk m c 5 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_cell, after_hidden]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each of the region's arrays at what the
    library assembles from the proof data and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, nothing faults, and the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Launched

end
-- ==== Proof.GateSpec.lean ====
/-
  The gated cell update, entry by entry on the extended reals.

  For `n` batch rows: `x : [n, 256]`, `o, h : [n, 1024]`, and the four gates' weights joined side by side,
  `W : [256, 4096]`, `R : [1024, 4096]`, `b : [4096]`. Gate column `q` of row `r` is
      gate r q = logistic (Σₖ x (r, k) · W (k, q) + Σₖ h (r, k) · R (k, q) + b q),
  the four gates f, i, k, g are the column ranges starting at 0, 1024, 2048, 3072, and
      cell (r, j)   = f (r, j) · o (r, j) − i (r, j) · max (g (r, j)) 0,
      hidden (r, j) = k (r, j) · max (cell (r, j)) 0.
  Entry `(r, j)` reads row `r` of `x`, `o`, `h` only, so a block of rows computed by itself is that block of the whole.
-/
import Idealize.ShloMosaic.PureOps.Ideal
import Idealize.ShloMosaic.Lib.ValueIdx

noncomputable section

open scoped BigOperators

namespace Cert.GateCell

open Idealize.ShloMosaic Idealize.ShloMosaic.ValueIdx

/-- A matrix of extended reals with `n` rows and `d` columns. -/
abbrev Mat (n d : ℕ) : Type := (⟨2, ![n, d]⟩ : Shape).Idx → EReal
/-- A vector of extended reals of length `d`. -/
abbrev Row (d : ℕ) : Type := (⟨1, ![d]⟩ : Shape).Idx → EReal

variable {n : ℕ}

/-- The pre-activation of gate column `q` at row `r`: the two products' entries and the bias, in that grouping. -/
def pre (x : Mat n 256) (h : Mat n 1024) (W : Mat 256 4096) (R : Mat 1024 4096) (b : Row 4096) (r : Fin n) (q : Fin 4096) : EReal :=
  ((∑ k : Fin 256, x (ix2 r k) * W (ix2 k q)) + (∑ k : Fin 1024, h (ix2 r k) * R (ix2 k q))) + b (ix1 q)

/-- The gate: the logistic function of the pre-activation. -/
def gate (x : Mat n 256) (h : Mat n 1024) (W : Mat 256 4096) (R : Mat 1024 4096) (b : Row 4096) (r : Fin n) (q : Fin 4096) : EReal :=
  Ideal.logistic (pre x h W R b r q)

/-- Column `j` of the gate whose columns start at `s`. -/
def lane (s : ℕ) (hs : s + 1024 ≤ 4096) (j : Fin 1024) : Fin 4096 := ⟨s + j.val, by have := j.isLt; omega⟩

theorem lane_val (s : ℕ) (hs : s + 1024 ≤ 4096) (j : Fin 1024) : (lane s hs j).val = s + j.val := rfl

/-- The new cell value at `(r, j)`. -/
def cellAt (x : Mat n 256) (o h : Mat n 1024) (W : Mat 256 4096) (R : Mat 1024 4096) (b : Row 4096) (r : Fin n) (j : Fin 1024) : EReal :=
  gate x h W R b r (lane 0 (by norm_num) j) * o (ix2 r j)
    - gate x h W R b r (lane 1024 (by norm_num) j) * max (gate x h W R b r (lane 3072 (by norm_num) j)) 0

/-- The new hidden value at `(r, j)`. -/
def hiddenAt (x : Mat n 256) (o h : Mat n 1024) (W : Mat 256 4096) (R : Mat 1024 4096) (b : Row 4096) (r : Fin n) (j : Fin 1024) : EReal :=
  gate x h W R b r (lane 2048 (by norm_num) j) * max (cellAt x o h W R b r j) 0

/-- The new cell array. -/
def cell (x : Mat n 256) (o h : Mat n 1024) (W : Mat 256 4096) (R : Mat 1024 4096) (b : Row 4096) : Mat n 1024 :=
  fun i => cellAt x o h W R b (i 0) (i 1)

/-- The new hidden array. -/
def hidden (x : Mat n 256) (o h : Mat n 1024) (W : Mat 256 4096) (R : Mat 1024 4096) (b : Row 4096) : Mat n 1024 :=
  fun i => hiddenAt x o h W R b (i 0) (i 1)

theorem cell_ix (x : Mat n 256) (o h : Mat n 1024) (W : Mat 256 4096) (R : Mat 1024 4096) (b : Row 4096) (r : Fin n) (j : Fin 1024) :
    cell x o h W R b (ix2 r j) = cellAt x o h W R b r j := rfl

theorem hidden_ix (x : Mat n 256) (o h : Mat n 1024) (W : Mat 256 4096) (R : Mat 1024 4096) (b : Row 4096) (r : Fin n) (j : Fin 1024) :
    hidden x o h W R b (ix2 r j) = hiddenAt x o h W R b r j := rfl

/-! ## An entry reads one row -/

variable {n' : ℕ}

/-- If row `r'` of `x'`, `h'` is row `r` of `x`, `h`, and the weights agree entry by entry, the gates of the two rows agree. -/
theorem gate_row (x : Mat n 256) (h : Mat n 1024) (W : Mat 256 4096) (R : Mat 1024 4096) (b : Row 4096)
    (x' : Mat n' 256) (h' : Mat n' 1024) (W' : Mat 256 4096) (R' : Mat 1024 4096) (b' : Row 4096)
    (r : Fin n) (r' : Fin n') (hx : ∀ k, x' (ix2 r' k) = x (ix2 r k)) (hh : ∀ k, h' (ix2 r' k) = h (ix2 r k))
    (hW : ∀ k q, W' (ix2 k q) = W (ix2 k q)) (hR : ∀ k q, R' (ix2 k q) = R (ix2 k q)) (hb : ∀ q, b' (ix1 q) = b (ix1 q))
    (q : Fin 4096) :
    gate x' h' W' R' b' r' q = gate x h W R b r q := by
  unfold gate pre
  simp only [hx, hh, hW, hR, hb]

/-- The same for the new cell value, given also the rows of `o`. -/
theorem cellAt_row (x : Mat n 256) (o h : Mat n 1024) (W : Mat 256 4096) (R : Mat 1024 4096) (b : Row 4096)
    (x' : Mat n' 256) (o' h' : Mat n' 1024) (W' : Mat 256 4096) (R' : Mat 1024 4096) (b' : Row 4096)
    (r : Fin n) (r' : Fin n') (hx : ∀ k, x' (ix2 r' k) = x (ix2 r k)) (hh : ∀ k, h' (ix2 r' k) = h (ix2 r k))
    (ho : ∀ j, o' (ix2 r' j) = o (ix2 r j))
    (hW : ∀ k q, W' (ix2 k q) = W (ix2 k q)) (hR : ∀ k q, R' (ix2 k q) = R (ix2 k q)) (hb : ∀ q, b' (ix1 q) = b (ix1 q))
    (j : Fin 1024) :
    cellAt x' o' h' W' R' b' r' j = cellAt x o h W R b r j := by
  unfold cellAt
  rw [gate_row x h W R b x' h' W' R' b' r r' hx hh hW hR hb, gate_row x h W R b x' h' W' R' b' r r' hx hh hW hR hb,
    gate_row x h W R b x' h' W' R' b' r r' hx hh hW hR hb, ho]

/-- And for the new hidden value. -/
theorem hiddenAt_row (x : Mat n 256) (o h : Mat n 1024) (W : Mat 256 4096) (R : Mat 1024 4096) (b : Row 4096)
    (x' : Mat n' 256) (o' h' : Mat n' 1024) (W' : Mat 256 4096) (R' : Mat 1024 4096) (b' : Row 4096)
    (r : Fin n) (r' : Fin n') (hx : ∀ k, x' (ix2 r' k) = x (ix2 r k)) (hh : ∀ k, h' (ix2 r' k) = h (ix2 r k))
    (ho : ∀ j, o' (ix2 r' j) = o (ix2 r j))
    (hW : ∀ k q, W' (ix2 k q) = W (ix2 k q)) (hR : ∀ k q, R' (ix2 k q) = R (ix2 k q)) (hb : ∀ q, b' (ix1 q) = b (ix1 q))
    (j : Fin 1024) :
    hiddenAt x' o' h' W' R' b' r' j = hiddenAt x o h W R b r j := by
  unfold hiddenAt
  rw [gate_row x h W R b x' h' W' R' b' r r' hx hh hW hR hb, cellAt_row x o h W R b x' o' h' W' R' b' r r' hx hh ho hW hR hb]

end Cert.GateCell

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibKeepdimsCols.lean ====
/-
  Column forms of a reduction with a kept axis. A reduction over the FIRST axis of a matrix read as the sum, or the
  maximum, over that column's entries; the host's reduction over the MIDDLE axis of a rank-3 array read the same way;
  and a vector laid as one row and repeated down the rows read at an index. General lemmas over any extents.
  (The cast of an `[a]` vector to the row `[1, a]` and the repetition of one row down `[b, a]` are the library's
  `shapeCast_a_1a_apply` and `broadcastTo_1b_ab_apply`; their composition is stated here.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdimsCols

open Idealize.ShloMosaic Idealize.ShloMosaic.ValueIdx

variable {α : Type}

/-- A `[b]` vector laid as the one row `[1, b]` and repeated down `[a, b]` reads, at `(p, c)`, the vector at `c`. -/
theorem broadcastTo_shapeCast_row_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc (0 : Fin 1) c)

/-- On the extended reals a lane sum over the first axis of an `[a, b]` matrix is, at column `c`, the sum of that
    column's entries. -/
theorem multiReduction_add_cols {a b : ℕ} (src : FVec Ideal ⟨2, ![a, b]⟩ .f32) (acc : BitVec (FTy.bits .f32))
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  match ax with
  | ⟨0, _⟩ => rfl
  | ⟨1, _⟩ => rfl

/-- On the extended reals a lane maximum over the first axis of an `[a, b]` matrix is, at column `c`, the maximum of
    the accumulator's value and that column's entries. -/
theorem multiReduction_maximumf_cols {a b : ℕ} (src : FVec Ideal ⟨2, ![a, b]⟩ .f32) (acc : BitVec (FTy.bits .f32))
    (h : (⟨2, ![a, b]⟩ : Shape).Reduces [0] ⟨1, ![b]⟩) (hφ : FKind.Formats .f32)
    (hacc : acc = FKind.maximumf.neutral .f32 hφ) (c : Fin b) :
    multiReduction .maximumf [0] ⟨1, ![b]⟩ src acc h hφ hacc (ix1 c)
      = (Finset.univ : Finset (Fin a)).fold max (Ideal.ofBits .f32 acc) (fun r => src (ix2 r c)) := by
  refine (Ideal.multiReduction_maximumf_single src acc h hφ hacc (ix1 c)).trans ?_
  refine congrArg (fun f => Finset.fold max (Ideal.ofBits .f32 acc) f (Finset.univ : Finset (Fin a))) ?_
  exact funext fun r => congrArg src (funext fun ax => Fin.ext (by
    match ax with
    | ⟨0, _⟩ => rfl
    | ⟨1, _⟩ => rfl))

/-- On the extended reals the host's reduction with a maximum body over the middle axis of an `[m, a, b]` array is, at
    `(k, c)`, the maximum of the initial value and the entries `(k, ·, c)`. -/
theorem hostReduce_maximumf_mid {m a b : ℕ} {u : Shape} (x : FVec Ideal ⟨3, ![m, a, b]⟩ .f32) (init : u.Idx → Ideal .f32)
    (h' : (⟨3, ![m, a, b]⟩ : Shape).ReducesTo [1] ⟨2, ![m, b]⟩) (h : (⟨3, ![m, a, b]⟩ : Shape).Reduces [1] ⟨2, ![m, b]⟩)
    (hu : 0 < u.numel) (k : Fin m) (c : Fin b) :
    Host.reduce FloatOps.maximumf x init h' hu (ix2 k c)
      = (Finset.univ : Finset (Fin a)).fold max (init (Shape.Idx.first hu)) (fun r => x (ix3 k r c)) := by
  refine (Host.reduce_eq_fold_single FloatOps.maximumf x init h' h hu (ix2 k c)).trans ?_
  refine congrArg (fun f => Finset.fold max (init (Shape.Idx.first hu)) f (Finset.univ : Finset (Fin a))) ?_
  exact funext fun r => congrArg x (funext fun ax => Fin.ext (by
    match ax with
    | ⟨0, _⟩ => rfl
    | ⟨1, _⟩ => rfl
    | ⟨2, _⟩ => rfl))

/-- On the extended reals the host's float sum over the middle axis of an `[m, a, b]` array is, at `(k, c)`, the
    initial value plus the sum of the entries `(k, ·, c)`. -/
theorem hostReduceAdd_mid {m a b : ℕ} (x : (⟨3, ![m, a, b]⟩ : Shape).Idx → EReal) (init : EReal)
    (h' : (⟨3, ![m, a, b]⟩ : Shape).ReducesTo [1] ⟨2, ![m, b]⟩) (h : (⟨3, ![m, a, b]⟩ : Shape).Reduces [1] ⟨2, ![m, b]⟩)
    (k : Fin m) (c : Fin b) :
    Ideal.hostReduceAdd h' x init (ix2 k c) = init + ∑ r : Fin a, x (ix3 k r c) := by
  refine (Ideal.hostReduceAdd_single h' h x init (ix2 k c)).trans ?_
  refine congrArg (init + ·) (Finset.sum_congr rfl fun r _ => congrArg x (funext fun ax => Fin.ext ?_))
  match ax with
  | ⟨0, _⟩ => rfl
  | ⟨1, _⟩ => rfl
  | ⟨2, _⟩ => rfl

/-- The f32 word of `-∞` is the bottom of the extended reals, so the maximum against it is the other operand. -/
theorem max_negInf_f32 (x : EReal) : max (Ideal.ofBits .f32 0xFF800000#32) x = x := by
  simp [Ideal.ofBits, Ideal.ieee]

end Cert.LibKeepdimsCols

end
-- ==== Proof.BodyValue.lean ====
/-
  The kernel body's two stored values, entry by entry on the extended reals: for the 256 rows of a block they are the
  gated cell update of those rows. The first matrix product's entry is the sum over the 256 input features, the second's
  the sum over the 1024 hidden features (the casts of the operands to a narrower float format change nothing on the
  extended reals); the bias vector laid as a row and repeated down the block reads the vector at the column; a
  1024-column slice starting at column `s` reads column `s + j`; the zero word is the real zero.
-/
import proofs.«105738_j12962211300015_1_alg».proof.Proof.Gen.KernelIdeal.Skeleton
import proofs.«105738_j12962211300015_1_alg».proof.Proof.GateSpec
import proofs.«105738_j12962211300015_1_alg».proof.Proof.LibPlainMatmul
import proofs.«105738_j12962211300015_1_alg».proof.Proof.LibKeepdimsCols
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.GateCell

/-- The two printed contraction records are the plain matrix product's. -/
theorem dotW_eq : dot_S256x256_S256x4096_S256x4096_1_0_0_1_n_n = DotDims.plain 256 256 4096 := rfl
theorem dotR_eq : dot_S256x1024_S1024x4096_S256x4096_1_0_0_1_n_n = DotDims.plain 256 1024 4096 := rfl

/-- The input-side product at `(p, q)`: the sum over the 256 input features. -/
theorem inProduct_at (v0 : FVec Ideal S256x256 .f32) (v4 : FVec Ideal S256x4096 .bf16) (p : Fin 256) (q : Fin 4096) :
    matmul (F := Ideal) (φ₁ := .bf16) (φ₂ := .bf16) dot_S256x256_S256x4096_S256x4096_1_0_0_1_n_n none (truncf .bf16 v0 bitsLt_bf16_f32)
        (shapeCast S256x4096 v4 shapeCasts_S256x4096_S256x4096) (constant S256x4096 .f32 0x00000000#32) (ix2 p q)
      = ∑ k : Fin 256, v0 (ix2 p k) * v4 (ix2 k q) := by
  rw [shapeCast_self, dotW_eq]
  exact Cert.LibPlainMatmul.matmul_zero_apply none (truncf .bf16 v0 bitsLt_bf16_f32) v4 p q

/-- The recurrent-side product at `(p, q)`: the sum over the 1024 hidden features. -/
theorem recProduct_at (v2 : FVec Ideal S256x1024 .f32) (v6 : FVec Ideal S1024x4096 .bf16) (p : Fin 256) (q : Fin 4096) :
    matmul (F := Ideal) (φ₁ := .bf16) (φ₂ := .bf16) dot_S256x1024_S1024x4096_S256x4096_1_0_0_1_n_n none (truncf .bf16 v2 bitsLt_bf16_f32)
        (shapeCast S1024x4096 v6 shapeCasts_S1024x4096_S1024x4096) (constant S256x4096 .f32 0x00000000#32) (ix2 p q)
      = ∑ k : Fin 1024, v2 (ix2 p k) * v6 (ix2 k q) := by
  rw [shapeCast_self, dotR_eq]
  exact Cert.LibPlainMatmul.matmul_zero_apply none (truncf .bf16 v2 bitsLt_bf16_f32) v6 p q

/-- The bias laid as one row and repeated down the block, at `(p, q)`: the bias at `q`. -/
theorem biasRows_at (v8 : FVec Ideal S4096 .f32) (p : Fin 256) (q : Fin 4096) :
    broadcastTo S256x4096 (shapeCast S1x4096 (shapeCast S4096 v8 shapeCasts_S4096_S4096) shapeCasts_S4096_S1x4096)
        broadcasts_S1x4096_S256x4096 (ix2 p q) = v8 (ix1 q) := by
  rw [shapeCast_self]
  exact Cert.LibKeepdimsCols.broadcastTo_shapeCast_row_apply v8 shapeCasts_S4096_S1x4096 broadcasts_S1x4096_S256x4096 p q

/-- The body's gate matrix at `(p, q)` is the gate of row `p` of the block, column `q`. -/
theorem gates_at (v0 : Vec Ideal S256x256 .f32) (v2 : Vec Ideal S256x1024 .f32) (v4 : Vec Ideal S256x4096 .bf16) (v6 : Vec Ideal S1024x4096 .bf16) (v8 : Vec Ideal S4096 .f32) (p : Fin 256) (q : Fin 4096) :
    k0_pay1 (F := Ideal) v0 v2 v4 v6 v8 (ix2 p q) = gate (n := 256) v0 v2 v4 v6 v8 p q := by
  unfold gate pre
  rw [← inProduct_at v0 v4 p q, ← recProduct_at v2 v6 p q, ← biasRows_at v8 p q]
  rfl

/-- A 1024-column slice of a `[256, 4096]` matrix starting at column `s`, at `(p, j)`: the matrix at `(p, s + j)`. -/
theorem slice_at (s : ℕ) (hs : s + 1024 ≤ 4096) (y : FVec Ideal S256x4096 .f32) (hsl : S256x4096.Slices ![0, s] S256x1024)
    (p : Fin 256) (j : Fin 1024) :
    extractStridedSlice S256x1024 ![0, s] y hsl (ix2 p j) = y (ix2 p (lane s hs j)) :=
  extractStridedSlice_apply ![0, s] y hsl (ix2 p j) (ix2 p (lane s hs j)) (fun a => match a with
    | ⟨0, _⟩ => by show p.val = 0 + p.val; omega
    | ⟨1, _⟩ => by show s + j.val = s + j.val; rfl)

/-- The stored cell value at `(p, j)`. -/
theorem cell_at (v0 : Vec Ideal S256x256 .f32) (v2 : Vec Ideal S256x1024 .f32) (v4 : Vec Ideal S256x4096 .bf16) (v6 : Vec Ideal S1024x4096 .bf16) (v8 : Vec Ideal S4096 .f32) (v21 : Vec Ideal S256x1024 .f32) (p : Fin 256) (j : Fin 1024) :
    k0_pay2 (F := Ideal) v0 v2 v4 v6 v8 v21 (ix2 p j) = cellAt (n := 256) v0 v21 v2 v4 v6 v8 p j := by
  unfold cellAt
  rw [← gates_at v0 v2 v4 v6 v8 p, ← gates_at v0 v2 v4 v6 v8 p, ← gates_at v0 v2 v4 v6 v8 p,
    ← slice_at 0 (by norm_num) (k0_pay1 (F := Ideal) v0 v2 v4 v6 v8) slices_S256x4096_o0_0_S256x1024 p j,
    ← slice_at 1024 (by norm_num) (k0_pay1 (F := Ideal) v0 v2 v4 v6 v8) slices_S256x4096_o0_1024_S256x1024 p j,
    ← slice_at 3072 (by norm_num) (k0_pay1 (F := Ideal) v0 v2 v4 v6 v8) slices_S256x4096_o0_3072_S256x1024 p j,
    ← Ideal.ofBits_zero_f32]
  rfl

/-- The stored hidden value at `(p, j)`. -/
theorem hidden_at (v0 : Vec Ideal S256x256 .f32) (v2 : Vec Ideal S256x1024 .f32) (v4 : Vec Ideal S256x4096 .bf16) (v6 : Vec Ideal S1024x4096 .bf16) (v8 : Vec Ideal S4096 .f32) (v21 : Vec Ideal S256x1024 .f32) (p : Fin 256) (j : Fin 1024) :
    k0_pay3 (F := Ideal) v0 v2 v4 v6 v8 v21 (ix2 p j) = hiddenAt (n := 256) v0 v21 v2 v4 v6 v8 p j := by
  unfold hiddenAt
  rw [← cell_at v0 v2 v4 v6 v8 v21 p j, ← gates_at v0 v2 v4 v6 v8 p,
    ← slice_at 2048 (by norm_num) (k0_pay1 (F := Ideal) v0 v2 v4 v6 v8) slices_S256x4096_o0_2048_S256x1024 p j,
    ← Ideal.ofBits_zero_f32]
  rfl

end Cert.KernelIdeal.BodyValue

end
-- ==== Proof.WholeArrays.lean ====
/-
  From blocks to arrays, on the extended reals. Point `t` of the 64 handles batch rows `256·t … 256·t + 255`: its blocks
  of x, o, h are those rows of the arrays, the three joined weight arrays are read whole at every point, and what it writes
  back is those rows of the gated cell update of the whole batch (an entry of the update reads one row). Row `r` is
  written by point `r / 256`, so the two result arrays end at the update of the whole batch; the joined weights the region
  finds are the four gates' weights side by side (the cast to a narrower format changes nothing on the extended reals).
-/
import proofs.«105738_j12962211300015_1_alg».proof.Proof.FrameIdeal
import proofs.«105738_j12962211300015_1_alg».proof.Proof.BodyValue
import Idealize.ShloMosaic.Lib.Pipeline.Value
import Idealize.ShloMosaic.Lib.StableHlo.Run

set_option maxRecDepth 16384

noncomputable section

open scoped BigOperators

namespace Cert.KernelIdeal.WholeArrays

open Cert.KernelIdeal Cert.KernelIdeal.Gen Cert.KernelIdeal.Launched Cert.GateCell
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 64 points: the five row-blocked windows sit at block `(t, 0)`, the three
    weight windows at the one block there is. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of point `t`'s block is batch row `256·t + p`. -/
def row (t : Fin cfg0.N) (p : Fin 256) : Fin 16384 :=
  ⟨t.val * 256 + p.val, by have h : t.val < grid0.N := t.isLt; rw [N_0] at h; have := p.isLt; omega⟩

/-! ## The input blocks, read off the arrays -/

theorem xBlock_at (c : Dev nD) (t : Fin cfg0.N) (p : Fin 256) (k : Fin 256) :
    iblk m c 0 t (ix2 p k) = V m c main_arg0 (ix2 (row t p) k) := by
  obtain ⟨e00, e01, e10, e11, e20, e21, -⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 256 + 1 * p.val = t.val * 256 + p.val; omega
  | ⟨1, _⟩ => show win0_0.index t (1 : Fin 2) * 256 + 1 * k.val = k.val; omega
theorem oBlock_at (c : Dev nD) (t : Fin cfg0.N) (p : Fin 256) (k : Fin 1024) :
    iblk m c 1 t (ix2 p k) = V m c main_arg1 (ix2 (row t p) k) := by
  obtain ⟨e00, e01, e10, e11, e20, e21, -⟩ := idx_facts t
  show V m c main_arg1 (((cfg0.win 1).blk t).view.emb (ix2 p k)) = _
  refine congrArg (V m c main_arg1) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega
theorem hBlock_at (c : Dev nD) (t : Fin cfg0.N) (p : Fin 256) (k : Fin 1024) :
    iblk m c 2 t (ix2 p k) = V m c main_arg2 (ix2 (row t p) k) := by
  obtain ⟨e00, e01, e10, e11, e20, e21, -⟩ := idx_facts t
  show V m c main_arg2 (((cfg0.win 2).blk t).view.emb (ix2 p k)) = _
  refine congrArg (V m c main_arg2) (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega

theorem wBlock_at (c : Dev nD) (t : Fin cfg0.N) (k : Fin 256) (q : Fin 4096) :
    iblk m c 3 t (ix2 k q) = V m c main_v1 (ix2 k q) := by
  obtain ⟨-, -, -, -, -, -, e30, e31, -⟩ := idx_facts t
  show V m c main_v1 (((cfg0.win 3).blk t).view.emb (ix2 k q)) = _
  refine congrArg (V m c main_v1) (funext fun a => Fin.ext ?_)
  match a with
  | ⟨0, _⟩ => show win0_3.index t (0 : Fin 2) * 256 + 1 * k.val = k.val; omega
  | ⟨1, _⟩ => show win0_3.index t (1 : Fin 2) * 4096 + 1 * q.val = q.val; omega

theorem rBlock_at (c : Dev nD) (t : Fin cfg0.N) (k : Fin 1024) (q : Fin 4096) :
    iblk m c 4 t (ix2 k q) = V m c main_v3 (ix2 k q) := by
  obtain ⟨-, -, -, -, -, -, -, -, e40, e41, -⟩ := idx_facts t
  show V m c main_v3 (((cfg0.win 4).blk t).view.emb (ix2 k q)) = _
  refine congrArg (V m c main_v3) (funext fun a => Fin.ext ?_)
  match a with
  | ⟨0, _⟩ => show win0_4.index t (0 : Fin 2) * 1024 + 1 * k.val = k.val; omega
  | ⟨1, _⟩ => show win0_4.index t (1 : Fin 2) * 4096 + 1 * q.val = q.val; omega

theorem bBlock_at (c : Dev nD) (t : Fin cfg0.N) (q : Fin 4096) :
    iblk m c 5 t (ix1 q) = V m c main_v4 (ix1 q) := by
  obtain ⟨-, -, -, -, -, -, -, -, -, -, e50, -⟩ := idx_facts t
  show V m c main_v4 (((cfg0.win 5).blk t).view.emb (ix1 q)) = _
  refine congrArg (V m c main_v4) (funext fun a => Fin.ext ?_)
  match a with
  | ⟨0, _⟩ => show win0_5.index t (0 : Fin 1) * 4096 + 1 * q.val = q.val; omega

/-- Entry `(p, j)` of point `t`'s result block is entry `(256·t + p, j)` of the result array. -/
theorem outEmb6 (t : Fin cfg0.N) (p : Fin 256) (j : Fin 1024) :
    ((cfg0.win 6).blk t).view.emb (ix2 p j) = ix2 (row t p) j := by
  obtain ⟨-, -, -, -, -, -, -, -, -, -, -, e60, e61, -⟩ := idx_facts t
  refine funext fun a => Fin.ext ?_
  match a with
  | ⟨0, _⟩ => show win0_6.index t (0 : Fin 2) * 256 + 1 * p.val = t.val * 256 + p.val; omega
  | ⟨1, _⟩ => show win0_6.index t (1 : Fin 2) * 1024 + 1 * j.val = j.val; omega
theorem outEmb7 (t : Fin cfg0.N) (p : Fin 256) (j : Fin 1024) :
    ((cfg0.win 7).blk t).view.emb (ix2 p j) = ix2 (row t p) j := by
  obtain ⟨-, -, -, -, -, -, -, -, -, -, -, -, -, e70, e71⟩ := idx_facts t
  refine funext fun a => Fin.ext ?_
  match a with
  | ⟨0, _⟩ => show win0_7.index t (0 : Fin 2) * 256 + 1 * p.val = t.val * 256 + p.val; omega
  | ⟨1, _⟩ => show win0_7.index t (1 : Fin 2) * 1024 + 1 * j.val = j.val; omega

/-! ## What a point writes back -/

/-- Point `t` writes back its rows of the new cell array of the whole batch … -/
theorem cell_flushed (c : Dev nD) (t : Fin cfg0.N) :
    (dats m 0 c).flushed 6 t = ((cfg0.win 6).blk t).view.read (Elt Ideal) (cell (n := 16384) (V m c main_arg0) (V m c main_arg1) (V m c main_arg2) (V m c main_v1) (V m c main_v3) (V m c main_v4)) := by
  show (cfg0.win 6).cut (grid0.coords t) ((dats m 0 c).after 6 t) = _
  rw [after_cell]
  unfold cellOut
  rw [View.canon_unit_zero hz2]
  simp only [View.ld_unit_zero (S := S256x256) hz2, View.ld_unit_zero (S := S256x1024) hz2, View.ld_unit_zero (S := S256x4096) hz2, View.ld_unit_zero (S := S1024x4096) hz2, View.ld_unit_zero (S := S4096) hz1]
  refine funext fun (y : S256x1024.Idx) => ?_
  obtain ⟨p, j, rfl⟩ : ∃ (p : Fin 256) (j : Fin 1024), y = ix2 p j := ⟨y 0, y 1, eq_ix2 y⟩
  show k0_pay2 (F := Ideal) (iblk m c 0 t) (iblk m c 2 t) (iblk m c 3 t) (iblk m c 4 t) (iblk m c 5 t) (iblk m c 1 t) (ix2 p j) = cell (n := 16384) (V m c main_arg0) (V m c main_arg1) (V m c main_arg2) (V m c main_v1) (V m c main_v3) (V m c main_v4) (((cfg0.win 6).blk t).view.emb (ix2 p j))
  refine (BodyValue.cell_at (iblk m c 0 t) (iblk m c 2 t) (iblk m c 3 t) (iblk m c 4 t) (iblk m c 5 t) (iblk m c 1 t) p j).trans ?_
  rw [outEmb6 t p j, cell_ix]
  exact cellAt_row (V m c main_arg0) (V m c main_arg1) (V m c main_arg2) (V m c main_v1) (V m c main_v3) (V m c main_v4) (iblk m c 0 t) (iblk m c 1 t) (iblk m c 2 t) (iblk m c 3 t) (iblk m c 4 t) (iblk m c 5 t) (row t p) p
    (xBlock_at m c t p) (hBlock_at m c t p) (oBlock_at m c t p) (wBlock_at m c t) (rBlock_at m c t) (bBlock_at m c t) j

/-- … and its rows of the new hidden array. -/
theorem hidden_flushed (c : Dev nD) (t : Fin cfg0.N) :
    (dats m 0 c).flushed 7 t = ((cfg0.win 7).blk t).view.read (Elt Ideal) (hidden (n := 16384) (V m c main_arg0) (V m c main_arg1) (V m c main_arg2) (V m c main_v1) (V m c main_v3) (V m c main_v4)) := by
  show (cfg0.win 7).cut (grid0.coords t) ((dats m 0 c).after 7 t) = _
  rw [after_hidden]
  unfold hiddenOut
  rw [View.canon_unit_zero hz2]
  simp only [View.ld_unit_zero (S := S256x256) hz2, View.ld_unit_zero (S := S256x1024) hz2, View.ld_unit_zero (S := S256x4096) hz2, View.ld_unit_zero (S := S1024x4096) hz2, View.ld_unit_zero (S := S4096) hz1]
  refine funext fun (y : S256x1024.Idx) => ?_
  obtain ⟨p, j, rfl⟩ : ∃ (p : Fin 256) (j : Fin 1024), y = ix2 p j := ⟨y 0, y 1, eq_ix2 y⟩
  show k0_pay3 (F := Ideal) (iblk m c 0 t) (iblk m c 2 t) (iblk m c 3 t) (iblk m c 4 t) (iblk m c 5 t) (iblk m c 1 t) (ix2 p j) = hidden (n := 16384) (V m c main_arg0) (V m c main_arg1) (V m c main_arg2) (V m c main_v1) (V m c main_v3) (V m c main_v4) (((cfg0.win 7).blk t).view.emb (ix2 p j))
  refine (BodyValue.hidden_at (iblk m c 0 t) (iblk m c 2 t) (iblk m c 3 t) (iblk m c 4 t) (iblk m c 5 t) (iblk m c 1 t) p j).trans ?_
  rw [outEmb7 t p j, hidden_ix]
  exact hiddenAt_row (V m c main_arg0) (V m c main_arg1) (V m c main_arg2) (V m c main_v1) (V m c main_v3) (V m c main_v4) (iblk m c 0 t) (iblk m c 1 t) (iblk m c 2 t) (iblk m c 3 t) (iblk m c 4 t) (iblk m c 5 t) (row t p) p
    (xBlock_at m c t p) (hBlock_at m c t p) (oBlock_at m c t p) (wBlock_at m c t) (rBlock_at m c t) (bBlock_at m c t) j

/-! ## The blocks cover the arrays -/

theorem mem_blk6 (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v5_0).slice (win0_6.rect t)).set ↔ _
  rw [View.set_slice_whole, Rect.mem_set_unit]
  exact Iff.rfl

/-- Row `r` lies in the block of point `r / 256`. -/
theorem cover6 (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  have hN : (i 0).val / 256 < cfg0.N := by show _ < grid0.N; rw [N_0]; omega
  obtain ⟨-, -, -, -, -, -, -, -, -, -, -, e60, e61, e70, e71⟩ := idx_facts ⟨(i 0).val / 256, hN⟩
  refine ⟨⟨(i 0).val / 256, hN⟩, flush0_6 _, ?_⟩
  rw [mem_blk6]
  intro a
  match a with
  | ⟨0, _⟩ =>
    show win0_6.index ⟨(i 0).val / 256, hN⟩ (0 : Fin 2) * 256 ≤ (i 0).val ∧ (i 0).val < win0_6.index ⟨(i 0).val / 256, hN⟩ (0 : Fin 2) * 256 + 256
    rw [e60]
    show (i 0).val / 256 * 256 ≤ (i 0).val ∧ (i 0).val < (i 0).val / 256 * 256 + 256
    omega
  | ⟨1, _⟩ =>
    show win0_6.index ⟨(i 0).val / 256, hN⟩ (1 : Fin 2) * 1024 ≤ (i 1).val ∧ (i 1).val < win0_6.index ⟨(i 0).val / 256, hN⟩ (1 : Fin 2) * 1024 + 1024
    rw [e61]
    omega

theorem mem_blk7 (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v5_1).slice (win0_7.rect t)).set ↔ _
  rw [View.set_slice_whole, Rect.mem_set_unit]
  exact Iff.rfl

/-- Row `r` lies in the block of point `r / 256`. -/
theorem cover7 (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hN : (i 0).val / 256 < cfg0.N := by show _ < grid0.N; rw [N_0]; omega
  obtain ⟨-, -, -, -, -, -, -, -, -, -, -, e60, e61, e70, e71⟩ := idx_facts ⟨(i 0).val / 256, hN⟩
  refine ⟨⟨(i 0).val / 256, hN⟩, flush0_7 _, ?_⟩
  rw [mem_blk7]
  intro a
  match a with
  | ⟨0, _⟩ =>
    show win0_7.index ⟨(i 0).val / 256, hN⟩ (0 : Fin 2) * 256 ≤ (i 0).val ∧ (i 0).val < win0_7.index ⟨(i 0).val / 256, hN⟩ (0 : Fin 2) * 256 + 256
    rw [e70]
    show (i 0).val / 256 * 256 ≤ (i 0).val ∧ (i 0).val < (i 0).val / 256 * 256 + 256
    omega
  | ⟨1, _⟩ =>
    show win0_7.index ⟨(i 0).val / 256, hN⟩ (1 : Fin 2) * 1024 ≤ (i 1).val ∧ (i 1).val < win0_7.index ⟨(i 0).val / 256, hN⟩ (1 : Fin 2) * 1024 + 1024
    rw [e71]
    omega

/-- The first result array after the run, -/
theorem cell_final (c : Dev nD) : (dats m 0 c).arrAt 6 cfg0.N = cell (n := 16384) (V m c main_arg0) (V m c main_arg1) (V m c main_arg2) (V m c main_v1) (V m c main_v3) (V m c main_v4) :=
  (dats m 0 c).arrAt_eq_of_cover 6 _ (fun t _ => cell_flushed m c t) cover6
/-- and the second. -/
theorem hidden_final (c : Dev nD) : (dats m 0 c).arrAt 7 cfg0.N = hidden (n := 16384) (V m c main_arg0) (V m c main_arg1) (V m c main_arg2) (V m c main_v1) (V m c main_v3) (V m c main_v4) :=
  (dats m 0 c).arrAt_eq_of_cover 7 _ (fun t _ => hidden_flushed m c t) cover7

/-! ## The joined weights the region finds -/

/-- The four gates' input-side weights side by side, -/
def joinedW (c : Dev nD) : Mat 256 4096 := (concatenate S256x4096 1 [⟨S256x1024, (m ((c : Thread nD τ).loc main_arg3))⟩, ⟨S256x1024, (m ((c : Thread nD τ).loc main_arg6))⟩, ⟨S256x1024, (m ((c : Thread nD τ).loc main_arg9))⟩, ⟨S256x1024, (m ((c : Thread nD τ).loc main_arg12))⟩] concatenates_S256x1024_S256x1024_S256x1024_S256x1024_S256x4096_d1)
/-- their recurrent-side weights side by side, -/
def joinedR (c : Dev nD) : Mat 1024 4096 := (concatenate S1024x4096 1 [⟨S1024x1024, (m ((c : Thread nD τ).loc main_arg5))⟩, ⟨S1024x1024, (m ((c : Thread nD τ).loc main_arg8))⟩, ⟨S1024x1024, (m ((c : Thread nD τ).loc main_arg11))⟩, ⟨S1024x1024, (m ((c : Thread nD τ).loc main_arg14))⟩] concatenates_S1024x1024_S1024x1024_S1024x1024_S1024x1024_S1024x4096_d1)
/-- and their biases end to end. -/
def joinedB (c : Dev nD) : Row 4096 := (concatenate S4096 0 [⟨S1024, (m ((c : Thread nD τ).loc main_arg4))⟩, ⟨S1024, (m ((c : Thread nD τ).loc main_arg7))⟩, ⟨S1024, (m ((c : Thread nD τ).loc main_arg10))⟩, ⟨S1024, (m ((c : Thread nD τ).loc main_arg13))⟩] concatenates_S1024_S1024_S1024_S1024_S4096_d0)

theorem V_joinedW (c : Dev nD) : (V m c main_v1 : S256x4096.Idx → EReal) = joinedW m c := by
  dsimp only [V, hostOps0]; after_results; rfl
theorem V_joinedR (c : Dev nD) : (V m c main_v3 : S1024x4096.Idx → EReal) = joinedR m c := by
  dsimp only [V, hostOps0]; after_results; rfl
theorem V_joinedB (c : Dev nD) : (V m c main_v4 : S4096.Idx → EReal) = joinedB m c := by
  dsimp only [V, hostOps0]; after_results; rfl

/-! ## The run, read -/

/-- Every weakly fair execution of the idealized kernel program terminates with its two results at the gated cell update
    of the launch contents, and its fifteen arguments unchanged. -/
theorem run : θ_run defs (onTc (τ := τ) (main (F := Ideal))) ⟨m, fun _ => 0, ρ⟩ fun r => ∀ c : Dev nD,
      r.2.mem ((c : Thread nD τ).loc main_v5_0) = cell (n := 16384) (m ((c : Thread nD τ).loc main_arg0)) (m ((c : Thread nD τ).loc main_arg1)) (m ((c : Thread nD τ).loc main_arg2)) (joinedW m c) (joinedR m c) (joinedB m c)
      ∧ r.2.mem ((c : Thread nD τ).loc main_v5_1) = hidden (n := 16384) (m ((c : Thread nD τ).loc main_arg0)) (m ((c : Thread nD τ).loc main_arg1)) (m ((c : Thread nD τ).loc main_arg2)) (joinedW m c) (joinedR m c) (joinedB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c =>
    ⟨(((h c).1 6).trans (cell_final m c)).trans (by rw [V_main_arg0, V_main_arg1, V_main_arg2, V_joinedW, V_joinedR, V_joinedB]),
     (((h c).1 7).trans (hidden_final m c)).trans (by rw [V_main_arg0, V_main_arg1, V_main_arg2, V_joinedW, V_joinedR, V_joinedB]),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).2 main_arg6 (Pipeline.mem_restRefs_of main_arg6 (by decide) (by decide))).trans (V_main_arg6 m c),
     ((h c).2 main_arg7 (Pipeline.mem_restRefs_of main_arg7 (by decide) (by decide))).trans (V_main_arg7 m c),
     ((h c).2 main_arg8 (Pipeline.mem_restRefs_of main_arg8 (by decide) (by decide))).trans (V_main_arg8 m c),
     ((h c).2 main_arg9 (Pipeline.mem_restRefs_of main_arg9 (by decide) (by decide))).trans (V_main_arg9 m c),
     ((h c).2 main_arg10 (Pipeline.mem_restRefs_of main_arg10 (by decide) (by decide))).trans (V_main_arg10 m c),
     ((h c).2 main_arg11 (Pipeline.mem_restRefs_of main_arg11 (by decide) (by decide))).trans (V_main_arg11 m c),
     ((h c).2 main_arg12 (Pipeline.mem_restRefs_of main_arg12 (by decide) (by decide))).trans (V_main_arg12 m c),
     ((h c).2 main_arg13 (Pipeline.mem_restRefs_of main_arg13 (by decide) (by decide))).trans (V_main_arg13 m c),
     ((h c).2 main_arg14 (Pipeline.mem_restRefs_of main_arg14 (by decide) (by decide))).trans (V_main_arg14 m c)⟩)
    (run_main m ρ)

end Cert.KernelIdeal.WholeArrays

end
-- ==== Proof.RefValue.lean ====
/-
  The reference program's two results, entry by entry on the extended reals, are the gated cell update of the whole
  batch over the joined weights. Its matrix products are the sums over the contracted axis; its bias, sent to a row
  and repeated down the batch, reads the joined bias at the column; its sigmoid is spelt 1 / (1 + exp (−z)), which is
  the logistic function on every extended real once the word of 1.0 is read as the real one; its four column slices
  start at 0, 1024, 2048, 3072; its rectifier is the maximum with the zero word.
-/
import proofs.«105738_j12962211300015_1_alg».proof.Proof.Gen.ReferenceIdeal.Read
import proofs.«105738_j12962211300015_1_alg».proof.Proof.GateSpec

noncomputable section

open scoped BigOperators

namespace Cert.ReferenceIdeal.RefValue

open Cert.ReferenceIdeal Cert.ReferenceIdeal.Gen Cert.ReferenceIdeal.Read Idealize.ShloMosaic Idealize.ShloMosaic.ValueIdx Cert.GateCell

/-- The f32 word of 1.0 is the real one. -/
theorem one_word : Ideal.ofBits .f32 0x3F800000#32 = 1 := by
  simp [Ideal.ofBits, Ideal.ieee, -EReal.coe_mul]; norm_num

/-! ## The operations' index functions at `(r, q)` -/

theorem lidxX (r : Fin 16384) (q : Fin 4096) (k : Fin 256) : lidx_main_v3 (ix2 r q) k = ix2 r k :=
  funext fun a => Fin.ext (by match a with | ⟨0, _⟩ => rfl | ⟨1, _⟩ => rfl)
theorem ridxW (r : Fin 16384) (q : Fin 4096) (k : Fin 256) : ridx_main_v3 (ix2 r q) k = ix2 k q :=
  funext fun a => Fin.ext (by match a with | ⟨0, _⟩ => rfl | ⟨1, _⟩ => rfl)
theorem lidxH (r : Fin 16384) (q : Fin 4096) (k : Fin 1024) : lidx_main_v4 (ix2 r q) k = ix2 r k :=
  funext fun a => Fin.ext (by match a with | ⟨0, _⟩ => rfl | ⟨1, _⟩ => rfl)
theorem ridxR (r : Fin 16384) (q : Fin 4096) (k : Fin 1024) : ridx_main_v4 (ix2 r q) k = ix2 k q :=
  funext fun a => Fin.ext (by match a with | ⟨0, _⟩ => rfl | ⟨1, _⟩ => rfl)
theorem idxBias (r : Fin 16384) (q : Fin 4096) : idx_main_v6 (idx_main_v7 (ix2 r q)) = ix1 q :=
  funext fun a => Fin.ext (by match a with | ⟨0, _⟩ => rfl)
theorem idxF (r : Fin 16384) (j : Fin 1024) : idx_main_v15 (ix2 r j) = ix2 r (lane 0 (by norm_num) j) :=
  funext fun a => Fin.ext (by match a with | ⟨0, _⟩ => rfl | ⟨1, _⟩ => exact (Nat.zero_add _).symm)
theorem idxI (r : Fin 16384) (j : Fin 1024) : idx_main_v16 (ix2 r j) = ix2 r (lane 1024 (by norm_num) j) :=
  funext fun a => Fin.ext (by match a with | ⟨0, _⟩ => rfl | ⟨1, _⟩ => rfl)
theorem idxK (r : Fin 16384) (j : Fin 1024) : idx_main_v17 (ix2 r j) = ix2 r (lane 2048 (by norm_num) j) :=
  funext fun a => Fin.ext (by match a with | ⟨0, _⟩ => rfl | ⟨1, _⟩ => rfl)
theorem idxG (r : Fin 16384) (j : Fin 1024) : idx_main_v18 (ix2 r j) = ix2 r (lane 3072 (by norm_num) j) :=
  funext fun a => Fin.ext (by match a with | ⟨0, _⟩ => rfl | ⟨1, _⟩ => rfl)

variable (x0 : (⟨S16384x256, .f32⟩ : BufTy).Contents (Elt Ideal)) (x1 x2 : (⟨S16384x1024, .f32⟩ : BufTy).Contents (Elt Ideal))
  (x3 x6 x9 x12 : (⟨S256x1024, .f32⟩ : BufTy).Contents (Elt Ideal)) (x4 x7 x10 x13 : (⟨S1024, .f32⟩ : BufTy).Contents (Elt Ideal))
  (x5 x8 x11 x14 : (⟨S1024x1024, .f32⟩ : BufTy).Contents (Elt Ideal))

/-- The reference's gate matrix at `(r, q)`. -/
theorem gates_at (r : Fin 16384) (q : Fin 4096) :
    val_main_v14 (F := Ideal) x0 x2 x3 x4 x5 x6 x7 x8 x9 x10 x11 x12 x13 x14 (ix2 r q)
      = gate (n := 16384) x0 x2 (val_main_v0 (F := Ideal) x3 x6 x9 x12) (val_main_v1 (F := Ideal) x5 x8 x11 x14) (val_main_v2 (F := Ideal) x4 x7 x10 x13) r q := by
  rw [val_main_v14_apply, val_main_v13_apply, val_main_cst_0_apply, val_main_v12_apply, val_main_v11_apply, val_main_cst_apply,
    val_main_v10_apply, val_main_v9_apply, val_main_v8_apply, val_main_v5_apply, val_main_v3_apply, val_main_v4_apply,
    val_main_v7_apply, val_main_v6_apply]
  simp only [lidxX, ridxW, lidxH, ridxR, idxBias, Ideal.hostDivf_def, Ideal.addf_def, Ideal.hostUnary_exp_def, Ideal.hostNegf_def,
    Ideal.negf_def, Ideal.ofBits_def, one_word]
  rfl

/-- The reference's new cell value at `(r, j)`. -/
theorem cell_at (r : Fin 16384) (j : Fin 1024) :
    val_main_v22 (F := Ideal) x0 x1 x2 x3 x4 x5 x6 x7 x8 x9 x10 x11 x12 x13 x14 (ix2 r j)
      = cellAt (n := 16384) x0 x1 x2 (val_main_v0 (F := Ideal) x3 x6 x9 x12) (val_main_v1 (F := Ideal) x5 x8 x11 x14) (val_main_v2 (F := Ideal) x4 x7 x10 x13) r j := by
  rw [val_main_v22_apply, val_main_v19_apply, val_main_v21_apply, val_main_v15_apply, val_main_v16_apply, val_main_v20_apply,
    val_main_v18_apply, val_main_call0_v0_apply, val_main_call0_cst_apply, idxF, idxI, idxG, gates_at, gates_at, gates_at]
  simp only [Ideal.subf_def, Ideal.mulf_def, Ideal.maximumf_def, Ideal.ofBits_def, Ideal.ofBits_zero_f32]
  rfl

/-- The reference's new hidden value at `(r, j)`. -/
theorem hidden_at (r : Fin 16384) (j : Fin 1024) :
    val_main_v24 (F := Ideal) x0 x1 x2 x3 x4 x5 x6 x7 x8 x9 x10 x11 x12 x13 x14 (ix2 r j)
      = hiddenAt (n := 16384) x0 x1 x2 (val_main_v0 (F := Ideal) x3 x6 x9 x12) (val_main_v1 (F := Ideal) x5 x8 x11 x14) (val_main_v2 (F := Ideal) x4 x7 x10 x13) r j := by
  rw [val_main_v24_apply, val_main_v17_apply, val_main_v23_apply, val_main_call1_v0_apply, val_main_call1_cst_apply, idxK, gates_at, cell_at]
  simp only [Ideal.mulf_def, Ideal.maximumf_def, Ideal.ofBits_def, Ideal.ofBits_zero_f32]
  rfl

/-- The reference's first result is the new cell array … -/
theorem cell_eq : val_main_v22 (F := Ideal) x0 x1 x2 x3 x4 x5 x6 x7 x8 x9 x10 x11 x12 x13 x14 = cell (n := 16384) x0 x1 x2 (val_main_v0 (F := Ideal) x3 x6 x9 x12) (val_main_v1 (F := Ideal) x5 x8 x11 x14) (val_main_v2 (F := Ideal) x4 x7 x10 x13) :=
  funext fun i => by
    obtain ⟨r, j, rfl⟩ : ∃ (r : Fin 16384) (j : Fin 1024), i = ix2 r j := ⟨i 0, i 1, eq_ix2 i⟩
    exact cell_at x0 x1 x2 x3 x6 x9 x12 x4 x7 x10 x13 x5 x8 x11 x14 r j

/-- … and its second the new hidden array. -/
theorem hidden_eq : val_main_v24 (F := Ideal) x0 x1 x2 x3 x4 x5 x6 x7 x8 x9 x10 x11 x12 x13 x14 = hidden (n := 16384) x0 x1 x2 (val_main_v0 (F := Ideal) x3 x6 x9 x12) (val_main_v1 (F := Ideal) x5 x8 x11 x14) (val_main_v2 (F := Ideal) x4 x7 x10 x13) :=
  funext fun i => by
    obtain ⟨r, j, rfl⟩ : ∃ (r : Fin 16384) (j : Fin 1024), i = ix2 r j := ⟨i 0, i 1, eq_ix2 i⟩
    exact hidden_at x0 x1 x2 x3 x6 x9 x12 x4 x7 x10 x13 x5 x8 x11 x14 r j

end Cert.ReferenceIdeal.RefValue

end
-- ==== Proof.lean ====
/-
  The certificate of a fused four-gate recurrent cell against its jnp reference, on the extended reals.

  Both programs join the four gates' weights side by side, W : [256, 4096], R : [1024, 4096], b : [4096], and compute
      gates  = logistic (x · W + h · R + b)          (16384 batch rows, 4096 gate columns)
      cell   = f ∘ o − i ∘ max (g, 0)
      hidden = k ∘ max (cell, 0)
  with f, i, k, g the gate columns from 0, 1024, 2048, 3072. The kernel does this 256 batch rows at a time over 64 grid
  points, with its matrix operands cast to a narrower float format (no change on the extended reals) and one logistic
  operation; the reference does it in one piece and spells the logistic function 1 / (1 + exp (−z)), which is the same
  function of every extended real. The two sides apply the same operations in the same grouping to the same sums, so no
  algebraic law and no finiteness is needed: what is proved is that a block of rows computed by itself is that block of
  the whole (an entry reads one row of x, o, h), and that the 64 blocks cover the arrays.

  The frames of the two kernel programs are run by hand against the library's single-region launch theorem (modules
  FrameBits and FrameIdeal); the reference's frame is its generated run. The idealization rewrote nothing, so the
  kernel's idealized program is its own text read on the extended reals.
-/
import proofs.«105738_j12962211300015_1_alg».proof.Defs
import proofs.«105738_j12962211300015_1_alg».proof.Proof.FrameBits
import proofs.«105738_j12962211300015_1_alg».proof.Proof.WholeArrays
import proofs.«105738_j12962211300015_1_alg».proof.Proof.RefValue
import proofs.«105738_j12962211300015_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem Cert.GateCell

/-- The kernel program as printed runs to the end, faults nowhere and leaves its arguments as launched. -/
theorem frame_kernel : Cert.frame_Kernel := fun m ρ _ => Cert.Kernel.Launched.frame m ρ

/-- So does its idealization. -/
theorem frame_kernelIdeal : Cert.frame_KernelIdeal := fun m ρ _ => Cert.KernelIdeal.Launched.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the new cell array and the new hidden array of the
    launch contents: the kernel by its blocks covering the arrays, the reference operation by operation. -/
theorem algebraic : Cert.algebraic_KernelIdeal_ReferenceIdeal := by
  intro m ρ m' ρ' _ hagree
  refine ⟨fun c => cell (n := 16384) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.WholeArrays.joinedW m c) (Cert.KernelIdeal.WholeArrays.joinedR m c) (Cert.KernelIdeal.WholeArrays.joinedB m c),
    fun c => hidden (n := 16384) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.WholeArrays.joinedW m c) (Cert.KernelIdeal.WholeArrays.joinedR m c) (Cert.KernelIdeal.WholeArrays.joinedB m c),
    Cert.KernelIdeal.WholeArrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v22_eq, Cert.ReferenceIdeal.RefValue.cell_eq,
      a0, a1, a2, a3, a4, a5, a6, a7, a8, a9, a10, a11, a12, a13, a14]
    rfl
  · obtain ⟨a0, a1, a2, a3, a4, a5, a6, a7, a8, a9, a10, a11, a12, a13, a14⟩ := hagree c
    rw [Cert.ReferenceIdeal.Read.val_main_v24_eq, Cert.ReferenceIdeal.RefValue.hidden_eq,
      a0, a1, a2, a3, a4, a5, a6, a7, a8, a9, a10, a11, a12, a13, a14]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
